-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x576x32 : Shape := ⟨3, ![16, 576, 32]⟩
abbrev S8192x32 : Shape := ⟨2, ![8192, 32]⟩
abbrev S_ : Shape := ⟨0, ![]⟩

class Facts : Prop where
  bcast_S_S16x576x32 : S_.BroadcastsInDim S16x576x32 (![] : Fin 0 → Fin S16x576x32.rank)
  reducesTo_S16x576x32_S_d0_1_2 : S16x576x32.ReducesTo [0, 1, 2] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S16x576x32 .f32) (main_arg1 : FVec F S8192x32 .f32) : IVec S_ 1 :=
  let main_v0 : FVec F S16x576x32 .f32 := Host.absf main_arg0
  let main_cst : FVec F S_ .f32 := constant S_ .f32 0x7F800000#32
  let main_v1 : FVec F S16x576x32 .f32 := broadcastInDim S16x576x32 ![] bcast_S_S16x576x32 main_cst
  let main_v2 : IVec S16x576x32 1 := cmpf .olt main_v0 main_v1
  let main_c : IVec S_ 1 := constantI S_ 1 1#1
  let main_v3 : IVec S_ 1 := (fun x v => Host.reduce IntOp.andi x v reducesTo_S16x576x32_S_d0_1_2 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Kernel.lean ====
abbrev S16x576x32 : Shape := ⟨3, ![16, 576, 32]⟩
abbrev S8192x32 : Shape := ⟨2, ![8192, 32]⟩
abbrev S9216x32 : Shape := ⟨2, ![9216, 32]⟩
abbrev S9216x8192 : Shape := ⟨2, ![9216, 8192]⟩
abbrev S288x32 : Shape := ⟨2, ![288, 32]⟩
abbrev S288x8192 : Shape := ⟨2, ![288, 8192]⟩
abbrev S288 : Shape := ⟨1, ![288]⟩
abbrev S288x1 : Shape := ⟨2, ![288, 1]⟩
abbrev S8192 : Shape := ⟨1, ![8192]⟩
abbrev S8192x1 : Shape := ⟨2, ![8192, 1]⟩
abbrev S16x576x8192 : Shape := ⟨3, ![16, 576, 8192]⟩

abbrev nBuf : Space → Nat
  | .hbm => 5
  | .vmem => 5
  | .smem => 0
  | _ => 0

abbrev bufTy : (tb : Table) → Fin (tcTables nBuf tb) → BufTy
  | .hbm, ⟨0, _⟩ => ⟨S16x576x32, .f32⟩
  | .hbm, ⟨1, _⟩ => ⟨S8192x32, .f32⟩
  | .hbm, ⟨2, _⟩ => ⟨S9216x32, .f32⟩
  | .hbm, ⟨3, _⟩ => ⟨S9216x8192, .f32⟩
  | .hbm, ⟨4, _⟩ => ⟨S16x576x8192, .f32⟩
  | .local _ .vmem, ⟨0, _⟩ => ⟨S288x32, .f32⟩
  | .local _ .vmem, ⟨1, _⟩ => ⟨S288x32, .f32⟩
  | .local _ .vmem, ⟨2, _⟩ => ⟨S8192x32, .f32⟩
  | .local _ .vmem, ⟨3, _⟩ => ⟨S288x8192, .f32⟩
  | .local _ .vmem, ⟨4, _⟩ => ⟨S288x8192, .f32⟩
  | _, _ => ⟨S16x576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S288x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x576x32_S9216x32 : S16x576x32.ShapeCasts S9216x32
  inb_S288x32_S288x32_0_0 : ∀ a, (![0, 0] : Fin 2 → Nat) a + S288x32.size a ≤ S288x32.size a
  h_S288x32 : 0 < S288x32.numel
  shapeCasts_S288x32_S288x32 : S288x32.ShapeCasts S288x32
  inb_S8192x32_S8192x32_0_0 : ∀ a, (![0, 0] : Fin 2 → Nat) a + S8192x32.size a ≤ S8192x32.size a
  h_S8192x32 : 0 < S8192x32.numel
  reduces_S288x32_S288 : S288x32.Reduces [1] S288
  shapeCasts_S288_S288x1 : S288.ShapeCasts S288x1
  broadcasts_S288x1_S288x32 : S288x1.Broadcasts S288x32
  reduces_S8192x32_S8192 : S8192x32.Reduces [1] S8192
  shapeCasts_S8192_S8192x1 : S8192.ShapeCasts S8192x1
  broadcasts_S8192x1_S8192x32 : S8192x1.Broadcasts S8192x32
  bitsLt_bf16_f32 : FTy.bits .bf16 < FTy.bits .f32
  inb_S288x8192_S288x8192_0_0 : ∀ a, (![0, 0] : Fin 2 → Nat) a + S288x8192.size a ≤ S288x8192.size a
  h_S288x8192 : 0 < S288x8192.numel
  shapeCasts_S9216x8192_S16x576x8192 : S9216x8192.ShapeCasts S16x576x8192
  dot_S288x32_S8192x32_S288x8192_1_1_0_0_n_n_wf : DotDims.WF S288x32 S8192x32 S288x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S288x32.size a ≤ S9216x32.size a
  hwx0_0 : ∀ i : grid0.Coords, EltTy.bits .f32 = 32 ∨ (Rect.block (s := S9216x32) S288x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .f32 = 32 ∨ (Rect.block (s := S8192x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S288x8192.size a ≤ S9216x8192.size a
  hwx0_2 : ∀ i : grid0.Coords, EltTy.bits .f32 = 32 ∨ (Rect.block (s := S9216x8192) S288x8192.size (cc0_transform_2 i) (hinb0_2 i)).WholeWords (EltTy.packing .f32)

variable [Facts₀]

def dot_S288x32_S8192x32_S288x8192_1_1_0_0_n_n : DotDims S288x32 S8192x32 S288x8192 where
  lhsContracting := [1]
  rhsContracting := [1]
  lhsNonContracting := [0]
  rhsNonContracting := [0]
  lhsBatch := []
  rhsBatch := []
  wf := dot_S288x32_S8192x32_S288x8192_1_1_0_0_n_n_wf

abbrev win0_0 : Pipeline.Window sig grid0 :=
  Pipeline.Window.ofSpec (Memref.whole main_v0) S288x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S288x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x576x32 : Shape := ⟨3, ![16, 576, 32]⟩
abbrev S8192x32 : Shape := ⟨2, ![8192, 32]⟩
abbrev S_ : Shape := ⟨0, ![]⟩
abbrev S16x576 : Shape := ⟨2, ![16, 576]⟩
abbrev S16x576x1 : Shape := ⟨3, ![16, 576, 1]⟩
abbrev S8192 : Shape := ⟨1, ![8192]⟩
abbrev S8192x1 : Shape := ⟨2, ![8192, 1]⟩
abbrev S16x576x8192 : Shape := ⟨3, ![16, 576, 8192]⟩

abbrev nBuf : Space → Nat
  | .hbm => 23
  | .vmem => 0
  | .smem => 0
  | _ => 0

abbrev bufTy : (tb : Table) → Fin (tcTables nBuf tb) → BufTy
  | .hbm, ⟨0, _⟩ => ⟨S16x576x32, .f32⟩
  | .hbm, ⟨1, _⟩ => ⟨S8192x32, .f32⟩
  | .hbm, ⟨2, _⟩ => ⟨S16x576x32, .f32⟩
  | .hbm, ⟨3, _⟩ => ⟨S_, .f32⟩
  | .hbm, ⟨4, _⟩ => ⟨S16x576, .f32⟩
  | .hbm, ⟨5, _⟩ => ⟨S16x576x1, .f32⟩
  | .hbm, ⟨6, _⟩ => ⟨S16x576x1, .f32⟩
  | .hbm, ⟨7, _⟩ => ⟨S_, .f32⟩
  | .hbm, ⟨8, _⟩ => ⟨S16x576x1, .f32⟩
  | .hbm, ⟨9, _⟩ => ⟨S16x576x1, .f32⟩
  | .hbm, ⟨10, _⟩ => ⟨S16x576x32, .f32⟩
  | .hbm, ⟨11, _⟩ => ⟨S16x576x32, .f32⟩
  | .hbm, ⟨12, _⟩ => ⟨S8192x32, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x32, .f32⟩
  | .hbm, ⟨21, _⟩ => ⟨S8192x32, .f32⟩
  | .hbm, ⟨22, _⟩ => ⟨S16x576x8192, .f32⟩
  | _, _ => ⟨S16x576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S16x576x32_S16x576_d2 : S16x576x32.ReducesTo [2] S16x576
  h_S_ : 0 < S_.numel
  bcast_S16x576_S16x576x1_0_1 : S16x576.BroadcastsInDim S16x576x1 (![0, 1] : Fin 2 → Fin S16x576x1.rank)
  bcast_S_S16x576x1 : S_.BroadcastsInDim S16x576x1 (![] : Fin 0 → Fin S16x576x1.rank)
  bcast_S16x576x1_S16x576x32_0_1_2 : S16x576x1.BroadcastsInDim S16x576x32 (![0, 1, 2] : Fin 3 → Fin S16x576x32.rank)
  reducesTo_S8192x32_S8192_d1 : S8192x32.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  dot_S16x576x32_S8192x32_S16x576x8192_2_1_01_0_n_n_wf : DotDims.WF S16x576x32 S8192x32 S16x576x8192 [2] [1] [0, 1] [0] [] []

variable [Facts₀]

def dot_S16x576x32_S8192x32_S16x576x8192_2_1_01_0_n_n : DotDims S16x576x32 S8192x32 S16x576x8192 where
  lhsContracting := [2]
  rhsContracting := [1]
  lhsNonContracting := [0, 1]
  rhsNonContracting := [0]
  lhsBatch := []
  rhsBatch := []
  wf := dot_S16x576x32_S8192x32_S16x576x8192_2_1_01_0_n_n_wf

class Facts : Prop extends Facts₀ where

variable [Facts]
-- ==== Proof.LibFiniteWord.lean ====
/-
  Finiteness tests against the `+∞` word, read on the extended reals.

  * `inf_word`: the f32 word `0x7F800000` denotes `+∞`;
  * `real_of_abs_lt_top`: an extended real whose absolute value `max x (-x)` compares strictly below `+∞` (the ordered
    "less than" answering the one-bit word 1) is neither infinity: it is a real number.
  Together they turn an entrywise `|x| < inf` test into "every entry is a real number".
-/
import Idealize.ShloMosaic.PureOps.Ideal

noncomputable section

namespace Cert.LibFiniteWord

open Idealize.ShloMosaic

/-- The f32 word `0x7F800000` denotes `+∞`. -/
theorem inf_word : Ideal.ofBits .f32 0x7F800000#32 = ⊤ := by
  unfold Ideal.ofBits Ideal.ieee
  simp only []
  rw [if_pos (by decide), if_pos (by decide), if_neg (by decide)]

/-- An extended real whose absolute value is strictly below `+∞` is a real number. -/
theorem real_of_abs_lt_top (x : EReal) (h : Ideal.cmp .olt (max x (-x)) ⊤ = 1#1) : ∃ r : ℝ, x = (r : EReal) := by
  have h2 : BitVec.ofBool (decide (max x (-x) < ⊤)) = 1#1 := h
  have h' : max x (-x) < ⊤ := by
    by_contra hn
    rw [decide_eq_false hn] at h2
    exact absurd h2 (by decide)
  induction x using EReal.rec with
  | bot => simp at h'
  | coe r => exact ⟨r, rfl⟩
  | top => simp at h'

end Cert.LibFiniteWord

end
-- ==== Proof.Finite.lean ====
/-
  The precondition, read entry by entry: both arguments hold real numbers only.

  The precondition tests, for each argument, that every entry's absolute value compares strictly below the `+∞` word,
  folds each family of one-bit answers by `and`, and conjoins the two. An `and` of bits that is 1 had every bit 1; an
  extended real whose absolute value is strictly below `+∞` is neither infinity, so it is a real number.
-/
import proofs.«104240_g84585085927497_cont_9to1_m_351_11_alg».proof.Pre_finite_inputs
import proofs.«104240_g84585085927497_cont_9to1_m_351_11_alg».proof.Proof.Gen.Pre_finite_inputs
import proofs.«104240_g84585085927497_cont_9to1_m_351_11_alg».proof.Proof.LibFiniteWord
import Idealize.ShloMosaic.Lib.ReduceAll
import Idealize.ShloMosaic.Lib.ValueIdx
import Idealize.ShloMosaic.Lib.Affine

noncomputable section

namespace Cert.Finite

open Idealize.ShloMosaic Cert.Pre_finite_inputs

instance : Subsingleton S_.Idx := ⟨fun a b => funext fun d => d.elim0⟩

/-- Under the precondition every entry of both arguments is a real number. -/
theorem entries_real [Cert.Pre_finite_inputs.Facts] (x0 : FVec Ideal S16x576x32 .f32) (x1 : FVec Ideal S8192x32 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h' := congrFun h ValueIdx.ix0
  dsimp only [Cert.Pre_finite_inputs.fn] at h'
  obtain ⟨ha, hb⟩ := IntOp.andi_eq_one.1 h'
  refine ⟨fun i => ?_, fun i => ?_⟩
  · have e := Host.reduce_andi_all _ _ _ _ _ ha i
    refine Cert.LibFiniteWord.real_of_abs_lt_top (x0 i) ?_
    rw [← Cert.LibFiniteWord.inf_word]
    exact e
  · have e := Host.reduce_andi_all _ _ _ _ _ hb i
    refine Cert.LibFiniteWord.real_of_abs_lt_top (x1 i) ?_
    rw [← Cert.LibFiniteWord.inf_word]
    exact e

end Cert.Finite

end
-- ==== Proof.LibScaleSum.lean ====
/-
  Moving a real factor across a finite sum on the extended reals.

  * `coe_sum`: a finite sum of reals, read in the extended reals, is the sum of the readings;
  * `scale_sum`: `(∑ₖ aₖ · wₖ) · s = ∑ₖ aₖ · (wₖ · s)` when every `aₖ` is a real number and `wₖ`, `s` are reals. The extended
    reals are not distributive at the infinities (a sum of products can be finite while a scaled term is not), so the
    hypothesis is needed; with it both sides are readings of real sums and the law is the reals'.
  Over any finite index type.
-/
import Idealize.ShloMosaic.PureOps.Ideal

noncomputable section

open scoped BigOperators

namespace Cert.LibScaleSum

/-- A finite sum of reals, read in the extended reals, is the sum of the readings. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Scaling the sum of products once is scaling every second factor, when the first factors are real numbers. -/
theorem scale_sum {ι : Type} [Fintype ι] (a : ι → EReal) (ha : ∀ k, ∃ r : ℝ, a k = (r : EReal)) (w : ι → ℝ) (s : ℝ) :
    (∑ k, a k * (w k : EReal)) * (s : EReal) = ∑ k, a k * ((w k : EReal) * (s : EReal)) := by
  choose r hr using ha
  have e1 : (∑ k, a k * (w k : EReal)) = ((∑ k, r k * w k : ℝ) : EReal) := by
    rw [coe_sum]; exact Finset.sum_congr rfl fun k _ => by rw [hr k, EReal.coe_mul]
  have e2 : (∑ k, a k * ((w k : EReal) * (s : EReal))) = ((∑ k, r k * (w k * s) : ℝ) : EReal) := by
    rw [coe_sum]; exact Finset.sum_congr rfl fun k _ => by rw [hr k, EReal.coe_mul, EReal.coe_mul]
  rw [e1, e2, ← EReal.coe_mul, Finset.sum_mul]
  exact congrArg _ (Finset.sum_congr rfl fun k _ => mul_assoc _ _ _)

end Cert.LibScaleSum

end
-- ==== Proof.Normalize.lean ====
/-
  Normalising a row by its Euclidean length, clamped away from zero, written two ways.

  For a row `x` of real numbers and a clamp `D > 0`:
  * the quotient form divides each entry by `max (√(∑ xₖ²)) D`;
  * the reciprocal-root form multiplies each entry by `1 / √(max (∑ xₖ²) D²)`.
  Since `√` is monotone and `√(D²) = D`, `√(max s D²) = max (√s) D` for `s ≥ 0`, so both forms are the same real
  number. On the extended reals the two are spelt with the junk-valued corners of the square root, the reciprocal root
  and the quotient (negative arguments, division by zero); a sum of squares of reals is a nonnegative real and the clamp
  is positive, so no corner is met.

  The clamp word of the quotient form, the f32 pattern `0x2B8CBCCC`, denotes the dyadic `2305843 / 2^61`.
-/
import Idealize.ShloMosaic.PureOps.Ideal
import Mathlib.Analysis.Real.Sqrt
import proofs.«104240_g84585085927497_cont_9to1_m_351_11_alg».proof.Proof.LibScaleSum

noncomputable section

open scoped BigOperators

namespace Cert.Normalize

open Idealize.ShloMosaic

/-- The clamp `D` of the quotient form: the dyadic rational `2305843 / 2^61`. -/
def clamp : ℝ := 2305843 / 2305843009213693952

theorem clamp_pos : 0 < clamp := by unfold clamp; norm_num

/-- Its square, the clamp of the reciprocal-root form. -/
theorem clamp_sq : clamp * clamp = 5316911940649 / 5316911983139663491615228241121378304 := by
  unfold clamp; norm_num

/-- The f32 word `0x2B8CBCCC` denotes the clamp. -/
theorem clamp_word : Ideal.ofBits .f32 0x2B8CBCCC#32 = ((clamp : ℝ) : EReal) := by
  unfold clamp
  simp [Ideal.ofBits, Ideal.ieee, -EReal.coe_mul]; norm_num

/-- The f32 zero word denotes `0`. -/
theorem zero_word : Ideal.ofBits .f32 0x00000000#32 = 0 := by
  simp [Ideal.ofBits, Ideal.ieee]

/-- The maximum of two reals read in the extended reals. -/
theorem coe_max (a b : ℝ) : max (a : EReal) (b : EReal) = ((max a b : ℝ) : EReal) :=
  (EReal.coe_strictMono.monotone.map_max).symm

/-- One entry: `r · (√(max s D²))⁻¹ = r / max (√s) D` for a nonnegative `s` and a positive `D`. -/
theorem entry_law (r s D : ℝ) (hs : 0 ≤ s) (hD : 0 < D) :
    (r : EReal) * Ideal.rsqrt (max (s : EReal) ((D * D : ℝ) : EReal))
      = Ideal.div (r : EReal) (max (Ideal.sqrt (s : EReal)) (D : EReal)) := by
  have hpos : 0 < max s (D * D) := lt_max_of_lt_right (mul_pos hD hD)
  have hy : max (Real.sqrt s) D ≠ 0 := (lt_max_of_lt_right hD).ne'
  have hroot : Real.sqrt (max s (D * D)) = max (Real.sqrt s) D := by
    rw [Real.sqrt_monotone.map_max, Real.sqrt_mul_self hD.le]
  rw [coe_max, Ideal.rsqrt_coe, if_neg (not_lt.mpr hpos.le), if_neg hpos.ne',
    Ideal.sqrt_coe, if_neg (not_lt.mpr hs), coe_max, Ideal.div_coe hy, hroot, one_div]

/-- The sum of the squares of a row of reals is a nonnegative real. -/
theorem sum_sq {ι : Type} [Fintype ι] (r : ι → ℝ) :
    (∑ k, (r k : EReal) * (r k : EReal)) = ((∑ k, r k * r k : ℝ) : EReal) := by
  rw [Cert.LibScaleSum.coe_sum]
  exact Finset.sum_congr rfl fun k _ => (EReal.coe_mul _ _).symm

/-- A whole row: entry `d` of the reciprocal-root form (the sum of squares clamped at `D²`) is entry `d` of the quotient
    form (the length, from a sum started at `0`, clamped at `D`), when every entry of the row is a real number. -/
theorem row_law {ι : Type} [Fintype ι] (x : ι → EReal) (hx : ∀ k, ∃ r : ℝ, x k = (r : EReal)) (D : ℝ) (hD : 0 < D)
    (d : ι) :
    x d * Ideal.rsqrt (max (∑ k, x k * x k) ((D * D : ℝ) : EReal))
      = Ideal.div (x d) (max (Ideal.sqrt (0 + ∑ k, x k * x k)) (D : EReal)) := by
  choose r hr using hx
  have hsum : (∑ k, x k * x k) = ((∑ k, r k * r k : ℝ) : EReal) := by
    rw [← sum_sq]; exact Finset.sum_congr rfl fun k _ => by rw [hr k]
  rw [zero_add, hsum, hr d]
  exact entry_law (r d) _ D (Finset.sum_nonneg fun k _ => mul_self_nonneg (r k)) hD

end Cert.Normalize

end
-- ==== Proof.LibRowOps.lean ====
/-
  Rank-2 blocks read at an index: three steps that a row-wise kernel body takes on a `[1, 1, a, b]` staging block.

  * `shapeCast_11ab_ab_apply` / `shapeCast_ab_11ab_apply`: dropping or adding the two leading unit axes keeps the entry
    at `(p, c)`;
  * `multiReduction_maximumf_lanes_apply`: a lane maximum of an `[a, b]` vector, at the ideal values, reads at row `p`
    the fold of `max` from the accumulator's value over the entries `(p, k)`, `k : Fin b`;
  * `matmul_zero_rows_ix2`: a product `[M, K] × [N, K]` contracting the second axis of BOTH operands (rows against rows,
    `A · Bᵀ`), accumulated into the zero splat, reads at `(p, q)` the sum over `k : Fin K` of `lhs (p, k) * rhs (q, k)`.
  All for any extents.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- A `[1, 1, a, b]` block read as the matrix `[a, b]`: entry `(p, c)` is the block's `(0, 0, p, c)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h _ _ (by
    rw [Shape.rowMajor_val_four, Shape.rowMajor_val_two]
    show ((0 * 1 + 0) * a + p.val) * b + c.val = p.val * b + c.val
    simp)

/-- A matrix `[a, b]` laid out as the block `[1, 1, a, b]`: entry `(u, w, p, c)` is the matrix's `(p, c)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (p : Fin a) (c : Fin b) :
    shapeCast ⟨4, ![1, 1, a, b]⟩ x h (ix4 u w p c) = x (ix2 p c) :=
  shapeCast_apply x h _ _ (by
    have hu : u.val = 0 := by omega
    have hw : w.val = 0 := by omega
    rw [Shape.rowMajor_val_four, Shape.rowMajor_val_two]
    show p.val * b + c.val = ((u.val * 1 + w.val) * a + p.val) * b + c.val
    rw [hu, hw]; simp)

/-- The maximum of an `[a, b]` vector along its lanes, read at row `p`: the fold of `max`, from the accumulator's value,
    over the entries `(p, k)`. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans (by
    have e : (src ∘ h.lift (ix1 p)) = fun k : Fin b => src (ix2 p k) :=
      funext fun k => congrArg src (funext fun ax => Fin.ext (by
        match ax with
        | ⟨0, _⟩ => rfl
        | ⟨1, _⟩ => rfl))
    rw [e]; rfl)

section RowsByRows
variable {M K N : Nat} (D : DotDims ⟨2, ![M, K]⟩ ⟨2, ![N, K]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With the right operand's ROWS its one free axis, the right operand index has the result's column as its row. -/
theorem rhsIdx_val_row (hlb : D.lhsBatch = []) (hln : D.lhsNonContracting = [0]) (hrb : D.rhsBatch = [])
    (hrn : D.rhsNonContracting = [0])
    (j : (⟨2, ![M, N]⟩ : Shape).Idx) (k : D.contr.Idx) : (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- Rows against rows: `[M, K] × [N, K]` contracting both second axes into the zero accumulator, read at `(p, q)`:
    `∑ₖ lhs (p, k) * rhs (q, k)`. -/
theorem matmul_zero_rows_ix2 (hlc : D.lhsContracting = [1]) (hrc : D.rhsContracting = [1])
    (hlb : D.lhsBatch = []) (hln : D.lhsNonContracting = [0]) (hrb : D.rhsBatch = []) (hrn : D.rhsNonContracting = [0])
    {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact rhsIdx_val_row D hlb hln hrb hrn _ _
    | ⟨1, _⟩ => exact (D.rhsIdx_val_of_single hrc _ _).trans hk)
  rw [el, er]

end RowsByRows

end Cert.LibRowOps

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelEntry.lean ====
/-
  One entry of the block the kernel body stores.

  The body scales every row of its two loaded blocks to unit Euclidean length — each entry times the reciprocal root of
  the row's sum of squares clamped below at a small positive constant — and stores the product of the first block with
  the transpose of the second: entry `(p, q)` is the sum over the 32 lanes `k` of (unit row `p` of the first block at
  `k`) times (unit row `q` of the second block at `k`). The changes of float format before the product are the
  identity on extended reals.
-/
import proofs.«104240_g84585085927497_cont_9to1_m_351_11_alg».proof.Proof.Gen.KernelIdeal.Skeleton
import proofs.«104240_g84585085927497_cont_9to1_m_351_11_alg».proof.Proof.LibRowOps
import proofs.«104240_g84585085927497_cont_9to1_m_351_11_alg».proof.Proof.LibRowSum
import proofs.«104240_g84585085927497_cont_9to1_m_351_11_alg».proof.Proof.LibColumn
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Entry

open Cert.KernelIdeal Cert.KernelIdeal.Gen Idealize.ShloMosaic Idealize.ShloMosaic.ValueIdx

/-- The named clamp denotes, on the extended reals, the rational its table gives it. -/
theorem eps_sq : Named.named (F := Ideal) κ "eps_sq" (φ := .f32) 0x179ABE15#32
    = ((5316911940649 / 5316911983139663491615228241121378304 : ℝ) : EReal) :=
  IdealRules.named_const.ideal_named_scalar _ _ _ _ rfl

/-- Entry `(p, k)` of an `[a, b]` matrix whose rows are scaled by the reciprocal root of their sum of squares clamped
    below at `c`. -/
def unit {a b : ℕ} (x : (⟨2, ![a, b]⟩ : Shape).Idx → EReal) (c : EReal) (p : Fin a) (k : Fin b) : EReal :=
  x (ix2 p k) * Ideal.rsqrt (max (∑ j : Fin b, x (ix2 p j) * x (ix2 p j)) c)

/-- The vector operations that scale the rows — square, lane sum, column layout, clamp, reciprocal root, spread over the
    lanes, product — read at `(p, k)`. -/
theorem unit_rows_apply {a b : ℕ} (x : FVec Ideal ⟨2, ![a, b]⟩ .f32) (c : Ideal .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (p : Fin a) (k : Fin b) :
    mulf x (broadcastTo ⟨2, ![a, b]⟩ (rsqrt (maximumf (shapeCast ⟨2, ![a, 1]⟩
        (multiReduction (F := Ideal) .add [1] ⟨1, ![a]⟩ (mulf x x) 0x00000000#32 hr (.inl rfl) rfl) hc)
        (broadcast ⟨2, ![a, 1]⟩ c))) hb) (ix2 p k)
      = unit x c p k := by
  rw [mulf_apply, Cert.LibColumn.broadcastTo_a1_ab_apply]
  show x (ix2 p k) * Ideal.rsqrt (max (shapeCast ⟨2, ![a, 1]⟩ _ hc (ix2 p (0 : Fin 1))) c) = _
  rw [Cert.LibColumn.shapeCast_a_a1_apply]
  exact congrArg (fun s => x (ix2 p k) * Ideal.rsqrt (max s c))
    (Cert.LibRowSum.multiReduction_add_lanes_apply (mulf x x) _ hr _ _ p)

/-- Entry `(p, q)` of the stored block. -/
theorem pay_apply (v0 : Vec Ideal S288x32 .f32) (v2 : Vec Ideal S8192x32 .f32) (p : Fin 288) (q : Fin 8192) :
    k0_pay1 (F := Ideal) v0 v2 (ix2 p q)
      = ∑ k : Fin 32, unit v0 (Named.named (F := Ideal) κ "eps_sq" (φ := .f32) 0x179ABE15#32) p k
          * unit v2 (Named.named (F := Ideal) κ "eps_sq" (φ := .f32) 0x179ABE15#32) q k := by
  unfold k0_pay1
  refine (Cert.LibRowOps.matmul_zero_rows_ix2 dot_S288x32_S8192x32_S288x8192_1_1_0_0_n_n rfl rfl rfl rfl rfl rfl none
    _ _ p q).trans ?_
  refine Finset.sum_congr rfl fun k _ => ?_
  rw [truncf_apply, truncf_apply, shapeCast_self]
  exact congrArg₂ (· * ·) (unit_rows_apply v0 _ _ _ _ p k) (unit_rows_apply v2 _ _ _ _ q k)

end Cert.KernelIdeal.Entry

end
-- ==== Proof.KernelArray.lean ====
/-
  The array the region leaves: every block of 288 rows is the body's product of the unit rows.

  The region runs over 32 grid points. Point `t` loads rows `288·t … 288·t + 287` of the left matrix `A` (9216 × 32)
  and the whole right matrix `B` (8192 × 32), and writes back rows `288·t … 288·t + 287` of the result (9216 × 8192).
  Entry `(r, q)` of the result depends on row `r` of `A` and row `q` of `B` only, so the blocks are restrictions of one
  function of the two matrices, `cosines A B`; the 32 blocks tile the result, hence it ends holding that function.
-/
import proofs.«104240_g84585085927497_cont_9to1_m_351_11_alg».proof.Proof.Gen.KernelIdeal.Frame
import proofs.«104240_g84585085927497_cont_9to1_m_351_11_alg».proof.Proof.KernelEntry

noncomputable section

open scoped BigOperators

namespace Cert.KernelIdeal.Array

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The clamp under the reciprocal root, as the body spells it. -/
abbrev epsSq : EReal := Named.named (F := Ideal) κ "eps_sq" (φ := .f32) 0x179ABE15#32

/-- Entry `(r, q)` of the result: the sum over the lanes of the products of unit row `r` of `A` and unit row `q` of `B`. -/
def cosine (A : S9216x32.Idx → EReal) (B : S8192x32.Idx → EReal) (r : Fin 9216) (q : Fin 8192) : EReal :=
  ∑ k : Fin 32, unit A epsSq r k * unit B epsSq q k

/-- The result as one function of the two matrices. -/
def cosines (A : S9216x32.Idx → EReal) (B : S8192x32.Idx → EReal) : S9216x8192.Idx → EReal :=
  fun i => cosine A B ⟨(i 0).val, (i 0).isLt⟩ ⟨(i 1).val, (i 1).isLt⟩

/-- The index maps over the grid: the left operand and the result move one block of rows per point, the right operand
    stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A stored entry from the blocks' rows: when row `p` of the left block is row `r` of `A` and row `q` of the right block
    is row `q` of `B`, entry `(p, q)` of the stored block is `cosine A B r q`. -/
theorem block_entry (A : S9216x32.Idx → EReal) (B : S8192x32.Idx → EReal) (x0 : Vec Ideal S288x32 .f32)
    (x1 : Vec Ideal S8192x32 .f32) (j : S288x8192.Idx) (p : Fin 288) (q : Fin 8192) (r : Fin 9216)
    (hp : (j 0).val = p.val) (hq : (j 1).val = q.val)
    (h0 : ∀ k : Fin 32, x0 (ix2 p k) = A (ix2 r k)) (h1 : ∀ k : Fin 32, x1 (ix2 q k) = B (ix2 q k)) :
    k0_pay1 (F := Ideal) x0 x1 j = cosine A B r q := by
  obtain rfl : j = ix2 p q := funext fun a => Fin.ext (by
    match a with
    | ⟨0, _⟩ => exact hp
    | ⟨1, _⟩ => exact hq)
  rw [pay_apply]
  unfold cosine unit
  simp only [h0, h1]

/-- Row `x 0` of the left window's block at point `t` is row `288·t + x 0` of the left matrix as the region finds it. -/
theorem left_block (c : Dev nD) (t : Fin cfg0.N) (x : S288x32.Idx) (k : S9216x32.Idx)
    (hk0 : (k 0).val = t.val * 288 + (x 0).val) (hk1 : (k 1).val = (x 1).val) :
    (iblk m c 0 t : Vec Ideal S288x32 .f32) x = (V m c main_v0 : S9216x32.Idx → EReal) k := by
  obtain ⟨e00, e01, -⟩ := idx_facts t
  unfold iblk
  rw [View.read_apply]
  show V m c main_v0 _ = V m c main_v0 _
  congr 1
  funext a
  apply Fin.ext
  match a with
  | ⟨0, _⟩ => show win0_0.index t (0 : Fin 2) * 288 + 1 * (x 0).val = (k 0).val; rw [e00, hk0]; omega
  | ⟨1, _⟩ => show win0_0.index t (1 : Fin 2) * 32 + 1 * (x 1).val = (k 1).val; rw [e01, hk1]; omega

/-- The right window's block at every point is the whole right matrix. -/
theorem right_block (c : Dev nD) (t : Fin cfg0.N) (x : S8192x32.Idx) :
    (iblk m c 1 t : Vec Ideal S8192x32 .f32) x = (V m c main_arg1 : S8192x32.Idx → EReal) x := by
  obtain ⟨-, -, e10, e11, -⟩ := idx_facts t
  unfold iblk
  rw [View.read_apply]
  show V m c main_arg1 _ = V m c main_arg1 _
  congr 1
  funext a
  apply Fin.ext
  match a with
  | ⟨0, _⟩ => show win0_1.index t (0 : Fin 2) * 8192 + 1 * (x 0).val = (x 0).val; rw [e10]; omega
  | ⟨1, _⟩ => show win0_1.index t (1 : Fin 2) * 32 + 1 * (x 1).val = (x 1).val; rw [e11]; omega

/-- What point `t` writes back is block `t` of `cosines` of the two matrices as the region finds them. -/
theorem flushed_eq (c : Dev nD) (t : Fin cfg0.N) :
    (dats m 0 c).flushed 2 t
      = ((cfg0.win 2).blk t).view.read (Elt Ideal) (cosines (V m c main_v0) (V m c main_arg1)) := by
  show (cfg0.win 2).cut (grid0.coords t) ((dats m 0 c).after 2 t) = _
  rw [after0_2]
  unfold out0_2
  rw [View.canon_unit_zero hz]
  simp only [View.ld_unit_zero (S := S288x32) hz, View.ld_unit_zero (S := S8192x32) hz]
  obtain ⟨-, -, -, -, e20, e21⟩ := idx_facts t
  funext j
  have hj0 : (j 0).val < 288 := (j 0).isLt
  have hj1 : (j 1).val < 8192 := (j 1).isLt
  have ht : t.val < 32 := Nat.lt_of_lt_of_eq t.isLt N_0
  show k0_pay1 (F := Ideal) (iblk m c 0 t) (iblk m c 1 t) j
    = cosines (V m c main_v0) (V m c main_arg1) (((cfg0.win 2).blk t).view.emb j)
  have hemb0 : ((((cfg0.win 2).blk t).view.emb j) 0).val = t.val * 288 + (j 0).val := by
    show win0_2.index t (0 : Fin 2) * 288 + 1 * (j 0).val = _; rw [e20]; omega
  have hemb1 : ((((cfg0.win 2).blk t).view.emb j) 1).val = (j 1).val := by
    show win0_2.index t (1 : Fin 2) * 8192 + 1 * (j 1).val = _; rw [e21]; omega
  refine (block_entry (V m c main_v0) (V m c main_arg1) (iblk m c 0 t) (iblk m c 1 t) j ⟨(j 0).val, hj0⟩ ⟨(j 1).val, hj1⟩
    ⟨t.val * 288 + (j 0).val, by omega⟩ rfl rfl (fun k => ?_) (fun k => ?_)).trans ?_
  · exact left_block m c t _ _ rfl rfl
  · exact right_block m c t _
  · unfold cosines
    exact congrArg₂ (cosine (V m c main_v0) (V m c main_arg1)) (Fin.ext hemb0.symm) (Fin.ext hemb1.symm)

/-- An index of the result is in point `t`'s block iff each coordinate is in the block's range on its axis. -/
theorem mem_blk (t : Fin cfg0.N) (i : S9216x8192.Idx) :
    i ∈ ((cfg0.win 2).blk t).view.set ↔ ∀ a : Fin 2, win0_2.index t a * S288x8192.size a ≤ (i a).val
      ∧ (i a).val < win0_2.index t a * S288x8192.size a + S288x8192.size a := by
  show i ∈ ((View.whole main_v1).slice (win0_2.rect t)).set ↔ _
  rw [View.set_slice_whole, Rect.mem_set_unit]
  exact Iff.rfl

/-- The result array after the region: `cosines` of the two matrices (row `r` is in the block of point `r / 288`). -/
theorem final (c : Dev nD) : (dats m 0 c).arrAt 2 cfg0.N = cosines (V m c main_v0) (V m c main_arg1) :=
  (dats m 0 c).arrAt_eq_of_cover 2 _ (fun t _ => flushed_eq m c t) fun i => by
    have hi0 : (i 0).val < 9216 := (i 0).isLt
    have hi1 : (i 1).val < 8192 := (i 1).isLt
    have hN : cfg0.N = 32 := N_0
    refine ⟨⟨(i 0).val / 288, by rw [hN]; omega⟩, flush0_2 _, ?_⟩
    obtain ⟨-, -, -, -, e20, e21⟩ := idx_facts ⟨(i 0).val / 288, by rw [hN]; omega⟩
    rw [mem_blk]
    intro a
    match a with
    | ⟨0, _⟩ =>
      show win0_2.index _ (0 : Fin 2) * 288 ≤ (i 0).val ∧ (i 0).val < win0_2.index _ (0 : Fin 2) * 288 + 288
      rw [e20]; show (i 0).val / 288 * 288 ≤ (i 0).val ∧ (i 0).val < (i 0).val / 288 * 288 + 288; omega
    | ⟨1, _⟩ =>
      show win0_2.index _ (1 : Fin 2) * 8192 ≤ (i 1).val ∧ (i 1).val < win0_2.index _ (1 : Fin 2) * 8192 + 8192
      rw [e21]; omega

end Cert.KernelIdeal.Array

end
-- ==== Proof.KernelRun.lean ====
/-
  The kernel program's run, read: the host reshapes around the region.

  Before the region the `[16, 576, 32]` argument is reshaped to the `9216 × 32` left matrix (row `576·b + n` is the
  argument's row `(b, n)`); after it the `9216 × 8192` result is reshaped to `[16, 576, 8192]`. Both are relabellings of
  the row-major position, so the program's result at `(b, n, q)` is the sum over the lanes of the products of the unit
  row `(b, n)` of the first argument and the unit row `q` of the second.
-/
import proofs.«104240_g84585085927497_cont_9to1_m_351_11_alg».proof.Proof.KernelArray
import Idealize.ShloMosaic.Lib.StableHlo.Run

noncomputable section

open scoped BigOperators

namespace Cert.KernelIdeal.Run

open Cert.KernelIdeal Cert.KernelIdeal.Gen Cert.KernelIdeal.Entry Cert.KernelIdeal.Array
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The left matrix as the region finds it: the first argument reshaped. -/
theorem left_matrix (c : Dev nD) : (V m c main_v0 : S9216x32.Idx → EReal)
    = shapeCast S9216x32 (m ((c : Thread nD τ).loc main_arg0)) shapeCasts_S16x576x32_S9216x32 := by
  show StableHlo.after hostOps0 (fun b => m (c, b)) (Proc.devRef .tc main_v0) = _
  after_results
  rfl

/-- The program's result buffer after the lines that follow the region: the region's result array reshaped. -/
theorem result_array (c : Dev nD) :
    (Pipeline.afterTail₀ cfgs (dats m) 0 (V0 m) [hostOps1] c main_v2 : S16x576x8192.Idx → EReal)
      = shapeCast S16x576x8192 ((dats m 0 c).arrAt 2 cfg0.N) shapeCasts_S9216x8192_S16x576x8192 := by
  unfold Pipeline.afterTail₀
  show StableHlo.after hostOps1 _ (Proc.devRef .tc main_v2) = _
  after_results
  exact congrArg (fun A : S9216x8192.Idx → EReal => shapeCast S16x576x8192 A shapeCasts_S9216x8192_S16x576x8192)
    (Pipeline.withArrays_arr spec0 launch0.win.arr_inj c (V0 m c) (fun w => (dats m 0 c).arrAt w cfg0.N) 2)

/-- The program's result as one function of its two arguments. -/
def result (x0 : S16x576x32.Idx → EReal) (x1 : S8192x32.Idx → EReal) : S16x576x8192.Idx → EReal :=
  shapeCast S16x576x8192 (cosines (shapeCast S9216x32 x0 shapeCasts_S16x576x32_S9216x32) x1)
    shapeCasts_S9216x8192_S16x576x8192

/-- Every weakly fair execution of the kernel program ends with its result at `result` of the arguments, and the
    arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans
        ((result_array m c).trans (by rw [final, left_matrix, V_main_arg1]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

/-- Entry `(b, n, q)` of the result: rows `(b, n)` of the first argument and `q` of the second, each scaled by the
    reciprocal root of its clamped sum of squares, multiplied lane by lane and summed. -/
theorem result_apply (x0 : S16x576x32.Idx → EReal) (x1 : S8192x32.Idx → EReal) (b : Fin 16) (n : Fin 576)
    (q : Fin 8192) :
    result x0 x1 (ix3 b n q)
      = ∑ k : Fin 32,
          (x0 (ix3 b n k) * Ideal.rsqrt (max (∑ j : Fin 32, x0 (ix3 b n j) * x0 (ix3 b n j)) epsSq))
            * (x1 (ix2 q k) * Ideal.rsqrt (max (∑ j : Fin 32, x1 (ix2 q j) * x1 (ix2 q j)) epsSq)) := by
  have hb : b.val < 16 := b.isLt
  have hn : n.val < 576 := n.isLt
  have hrow : ∀ j : Fin 32, shapeCast S9216x32 x0 shapeCasts_S16x576x32_S9216x32
      (ix2 (⟨b.val * 576 + n.val, by omega⟩ : Fin 9216) j) = x0 (ix3 b n j) := fun j =>
    shapeCast_apply x0 _ _ _ (by
      rw [Shape.rowMajor_val_three, Shape.rowMajor_val_two]
      show (b.val * 576 + n.val) * 32 + j.val = (b.val * 576 + n.val) * 32 + j.val
      rfl)
  unfold result
  rw [shapeCast_apply (cosines _ x1) shapeCasts_S9216x8192_S16x576x8192 (ix3 b n q)
    (ix2 (⟨b.val * 576 + n.val, by omega⟩ : Fin 9216) q) (by
      rw [Shape.rowMajor_val_two, Shape.rowMajor_val_three]
      show (b.val * 576 + n.val) * 8192 + q.val = (b.val * 576 + n.val) * 8192 + q.val
      rfl)]
  show cosine _ x1 ⟨b.val * 576 + n.val, _⟩ q = _
  unfold cosine unit
  simp only [hrow]

end Cert.KernelIdeal.Run

end
-- ==== Proof.ReferenceEntry.lean ====
/-
  One entry of the reference's result.

  The reference divides every row of each argument by the row's Euclidean length — the square root of the sum of squares
  started at the zero word — clamped below at a small positive word, and contracts the 32 lanes: entry `(b, n, q)` is the
  sum over `k` of (row `(b, n)` of the first argument, divided, at `k`) times (row `q` of the second, divided, at `k`).
-/
import proofs.«104240_g84585085927497_cont_9to1_m_351_11_alg».proof.Proof.Gen.ReferenceIdeal.Read

noncomputable section

open scoped BigOperators

namespace Cert.ReferenceIdeal.Entry

open Cert.ReferenceIdeal Cert.ReferenceIdeal.Read Idealize.ShloMosaic Idealize.ShloMosaic.ValueIdx

/-- Entry `k` of a row `x` divided by its clamped length. -/
def quot {ι : Type} [Fintype ι] (x : ι → EReal) (k : ι) : EReal :=
  Ideal.div (x k) (max (Ideal.sqrt (Ideal.ofBits .f32 0x00000000#32 + ∑ j, x j * x j)) (Ideal.ofBits .f32 0x2B8CBCCC#32))

theorem lidx_eq (b : Fin 16) (n : Fin 576) (q : Fin 8192) (k : Fin 32) : lidx_main_v10 (ix3 b n q) k = ix3 b n k :=
  funext fun a => Fin.ext (by match a with | ⟨0, _⟩ => rfl | ⟨1, _⟩ => rfl | ⟨2, _⟩ => rfl)
theorem ridx_eq (b : Fin 16) (n : Fin 576) (q : Fin 8192) (k : Fin 32) : ridx_main_v10 (ix3 b n q) k = ix2 q k :=
  funext fun a => Fin.ext (by match a with | ⟨0, _⟩ => rfl | ⟨1, _⟩ => rfl)
theorem left_row_eq (b : Fin 16) (n : Fin 576) (k j : Fin 32) :
    idx_main_call0_v1 (idx_main_call0_v2 (idx_main_v3 (ix3 b n k))) j = ix3 b n j :=
  funext fun a => Fin.ext (by match a with | ⟨0, _⟩ => rfl | ⟨1, _⟩ => rfl | ⟨2, _⟩ => rfl)
theorem right_row_eq (q : Fin 8192) (k j : Fin 32) :
    idx_main_call1_v1 (idx_main_call1_v2 (idx_main_v8 (ix2 q k))) j = ix2 q j :=
  funext fun a => Fin.ext (by match a with | ⟨0, _⟩ => rfl | ⟨1, _⟩ => rfl)

/-- The first argument's divided rows. -/
theorem left_apply (x0 : (⟨S16x576x32, .f32⟩ : BufTy).Contents (Elt Ideal)) (b : Fin 16) (n : Fin 576) (k : Fin 32) :
    val_main_v4 (F := Ideal) x0 (ix3 b n k) = quot (fun j : Fin 32 => x0 (ix3 b n j)) k := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, left_row_eq, Ideal.hostDivf_def, Ideal.maximumf_def, Ideal.hostUnary_sqrt_def,
    Ideal.mulf_def, Ideal.ofBits_def]
  rfl

/-- The second argument's divided rows. -/
theorem right_apply (x1 : (⟨S8192x32, .f32⟩ : BufTy).Contents (Elt Ideal)) (q : Fin 8192) (k : Fin 32) :
    val_main_v9 (F := Ideal) x1 (ix2 q k) = quot (fun j : Fin 32 => x1 (ix2 q j)) k := by
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, right_row_eq, Ideal.hostDivf_def, Ideal.maximumf_def, Ideal.hostUnary_sqrt_def,
    Ideal.mulf_def, Ideal.ofBits_def]
  rfl

/-- Entry `(b, n, q)` of the reference's result. -/
theorem result_apply (x0 : (⟨S16x576x32, .f32⟩ : BufTy).Contents (Elt Ideal))
    (x1 : (⟨S8192x32, .f32⟩ : BufTy).Contents (Elt Ideal)) (b : Fin 16) (n : Fin 576) (q : Fin 8192) :
    val_main_v10 (F := Ideal) x0 x1 (ix3 b n q)
      = ∑ k : Fin 32, quot (fun j : Fin 32 => x0 (ix3 b n j)) k * quot (fun j : Fin 32 => x1 (ix2 q j)) k := by
  rw [val_main_v10_apply]
  refine Finset.sum_congr rfl fun k _ => ?_
  rw [lidx_eq, ridx_eq, left_apply, right_apply]

end Cert.ReferenceIdeal.Entry

end
-- ==== Proof.Bridge.lean ====
/-
  The two programs compute one function of their arguments, when the arguments hold real numbers.

  At `(b, n, q)` the kernel program's result is the sum over the 32 lanes of (row `(b, n)` of the first argument times the
  reciprocal root of its sum of squares clamped at `D²`) times (row `q` of the second argument, likewise); the
  reference's is the same sum with each row divided by its length clamped at `D`, `D = 2305843 / 2^61` the dyadic that
  the reference's clamp word denotes. Entry by entry `x · (√(max s D²))⁻¹ = x / max (√s) D` for a row of reals
  (its sum of squares `s` is a nonnegative real), so the two sums agree term by term.
-/
import proofs.«104240_g84585085927497_cont_9to1_m_351_11_alg».proof.Proof.Normalize
import proofs.«104240_g84585085927497_cont_9to1_m_351_11_alg».proof.Proof.KernelRun
import proofs.«104240_g84585085927497_cont_9to1_m_351_11_alg».proof.Proof.ReferenceEntry

noncomputable section

open scoped BigOperators

namespace Cert.Bridge

open Idealize.ShloMosaic Idealize.ShloMosaic.ValueIdx

/-- The kernel's named clamp is the square of the reference's clamp. -/
theorem epsSq_eq : Cert.KernelIdeal.Array.epsSq = ((Cert.Normalize.clamp * Cert.Normalize.clamp : ℝ) : EReal) := by
  rw [Cert.Normalize.clamp_sq]
  exact Cert.KernelIdeal.Entry.eps_sq

/-- One entry of a row of reals, scaled the kernel's way, is the entry divided the reference's way. -/
theorem row_eq {ι : Type} [Fintype ι] (x : ι → EReal) (hx : ∀ k, ∃ r : ℝ, x k = (r : EReal)) (k : ι) :
    x k * Ideal.rsqrt (max (∑ j, x j * x j) Cert.KernelIdeal.Array.epsSq) = Cert.ReferenceIdeal.Entry.quot x k := by
  unfold Cert.ReferenceIdeal.Entry.quot
  rw [epsSq_eq, Cert.Normalize.zero_word, Cert.Normalize.clamp_word]
  exact Cert.Normalize.row_law x hx Cert.Normalize.clamp Cert.Normalize.clamp_pos k

/-- The kernel program's result is the reference's, for arguments whose entries are all real numbers. -/
theorem results_eq (x0 : (⟨3, ![16, 576, 32]⟩ : Shape).Idx → EReal) (x1 : (⟨2, ![8192, 32]⟩ : Shape).Idx → EReal)
    (h0 : ∀ i, ∃ r : ℝ, x0 i = (r : EReal)) (h1 : ∀ i, ∃ r : ℝ, x1 i = (r : EReal)) :
    Cert.KernelIdeal.Run.result x0 x1 = Cert.ReferenceIdeal.Read.val_main_v10 (F := Ideal) x0 x1 := by
  funext i
  obtain ⟨b, n, q, rfl⟩ : ∃ (b : Fin 16) (n : Fin 576) (q : Fin 8192), i = ix3 b n q := ⟨i 0, i 1, i 2, eq_ix3 i⟩
  rw [Cert.KernelIdeal.Run.result_apply, Cert.ReferenceIdeal.Entry.result_apply]
  refine Finset.sum_congr rfl fun k _ => ?_
  exact congrArg₂ (· * ·) (row_eq (fun j : Fin 32 => x0 (ix3 b n j)) (fun j => h0 _) k)
    (row_eq (fun j : Fin 32 => x1 (ix2 q j)) (fun j => h1 _) k)

end Cert.Bridge

end
-- ==== Proof.lean ====
/-
  Cosine-similarity logits: every row of the hidden states and every row of the codebook is scaled to unit Euclidean
  length and the two are contracted over their 32 lanes, `logits[b, n, q] = ∑ₖ ĥ[b, n, k] · ŵ[q, k]`.

  The kernel reshapes the hidden states to a 9216 × 32 matrix, tiles its rows 288 at a time over 32 grid points, scales
  rows by `x · rsqrt (max (∑ x²) c)` and multiplies by the transposed codebook; the reference scales rows by
  `x / max (√(∑ x²)) D` and contracts with an einsum. The kernel's clamp `c` is named `D²`, the square of the dyadic
  rational the reference's clamp word denotes; for rows of real numbers the two scalings are the same real number entry
  by entry (`√(max s D²) = max (√s) D` for `s ≥ 0`, `D > 0`), which is where the precondition — every input finite — is used.

  The three programs' runs: the kernel's and its idealization's frames are the generated ones; the reference's frame is
  its generated run with the result dropped. The idealization's two rewrites are the two occurrences of the named clamp.
-/
import proofs.«104240_g84585085927497_cont_9to1_m_351_11_alg».proof.Defs
import proofs.«104240_g84585085927497_cont_9to1_m_351_11_alg».proof.Proof.Gen.Kernel
import proofs.«104240_g84585085927497_cont_9to1_m_351_11_alg».proof.Proof.Gen.Kernel.Skeleton
import proofs.«104240_g84585085927497_cont_9to1_m_351_11_alg».proof.Proof.Gen.Kernel.Launch
import proofs.«104240_g84585085927497_cont_9to1_m_351_11_alg».proof.Proof.Gen.Kernel.Points
import proofs.«104240_g84585085927497_cont_9to1_m_351_11_alg».proof.Proof.Gen.Kernel.Frame
import proofs.«104240_g84585085927497_cont_9to1_m_351_11_alg».proof.Proof.Gen.KernelIdeal
import proofs.«104240_g84585085927497_cont_9to1_m_351_11_alg».proof.Proof.Gen.KernelIdeal.Skeleton
import proofs.«104240_g84585085927497_cont_9to1_m_351_11_alg».proof.Proof.Gen.KernelIdeal.Launch
import proofs.«104240_g84585085927497_cont_9to1_m_351_11_alg».proof.Proof.Gen.KernelIdeal.Points
import proofs.«104240_g84585085927497_cont_9to1_m_351_11_alg».proof.Proof.Gen.KernelIdeal.Frame
import proofs.«104240_g84585085927497_cont_9to1_m_351_11_alg».proof.Proof.Gen.ReferenceIdeal
import proofs.«104240_g84585085927497_cont_9to1_m_351_11_alg».proof.Proof.Gen.Pre_finite_inputs
import proofs.«104240_g84585085927497_cont_9to1_m_351_11_alg».proof.Proof.Gen.ReferenceIdeal.Run
import proofs.«104240_g84585085927497_cont_9to1_m_351_11_alg».proof.Proof.Gen.ReferenceIdeal.Read
import proofs.«104240_g84585085927497_cont_9to1_m_351_11_alg».proof.Proof.Finite
import proofs.«104240_g84585085927497_cont_9to1_m_351_11_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The named clamp reads, on the extended reals, as the rational the table gives it: once per occurrence. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl⟩

/-- Both idealized programs end with the same logits: the kernel program's result is a function of its arguments, the
    reference's run ends at its composed term, and under the precondition the arguments' entries are real numbers, for
    which the two are one function. -/
theorem algebraic : Cert.algebraic_KernelIdeal_ReferenceIdeal := by
  intro m ρ m' ρ' hpre hagree
  refine ⟨fun c => Cert.KernelIdeal.Run.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v10_eq]
  obtain ⟨h0, h1⟩ := Cert.Finite.entries_real _ _ (hpre c)
  exact (Cert.Bridge.results_eq _ _ h0 h1).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
